-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S16x40 : Shape := ⟨2, ![16, 40]⟩
abbrev S16 : Shape := ⟨1, ![16]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel
  bcast_S_S16x40 : S_.BroadcastsInDim S16x40 (![] : Fin 0 → Fin S16x40.rank)
  reducesTo_S16x40_S_d0_1 : S16x40.ReducesTo [0, 1] S_

variable [Facts]

def fn {F : FTy → Type} [FloatOps F] (main_arg0 : FVec F S16x2048x3 .f32) (main_arg1 : FVec F S16x2048x3 .f32) (main_arg2 : FVec F S16x40 .f32) (main_arg3 : IVec S16 32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  let main_v9 : FVec F S16x40 .f32 := Host.absf main_arg2
  let main_cst_2 : FVec F S_ .f32 := constant S_ .f32 0x7F800000#32
  let main_v10 : FVec F S16x40 .f32 := broadcastInDim S16x40 ![] bcast_S_S16x40 main_cst_2
  let main_v11 : IVec S16x40 1 := cmpf .olt main_v9 main_v10
  let main_c_3 : IVec S_ 1 := constantI S_ 1 1#1
  let main_v12 : IVec S_ 1 := (fun x v => Host.reduce IntOp.andi x v reducesTo_S16x40_S_d0_1 h_S_) main_v11 main_c_3
  let main_v13 : IVec S_ 1 := andi main_v8 main_v12
  main_v13
-- ==== Kernel.lean ====
abbrev S16x2048x3 : Shape := ⟨3, ![16, 2048, 3]⟩
abbrev S16x40 : Shape := ⟨2, ![16, 40]⟩
abbrev S16 : Shape := ⟨1, ![16]⟩
abbrev S16x1x1 : Shape := ⟨3, ![16, 1, 1]⟩
abbrev S1x2048x3 : Shape := ⟨3, ![1, 2048, 3]⟩
abbrev S1x1024x3 : Shape := ⟨3, ![1, 1024, 3]⟩
abbrev S1x1x1 : Shape := ⟨3, ![1, 1, 1]⟩
abbrev S2048x1 : Shape := ⟨2, ![2048, 1]⟩
abbrev S1x1 : Shape := ⟨2, ![1, 1]⟩
abbrev S2048x3 : Shape := ⟨2, ![2048, 3]⟩
abbrev S1024x3 : Shape := ⟨2, ![1024, 3]⟩
abbrev S2048 : Shape := ⟨1, ![2048]⟩
abbrev S1024 : Shape := ⟨1, ![1024]⟩
abbrev S1024x1 : Shape := ⟨2, ![1024, 1]⟩
abbrev S3x1024 : Shape := ⟨2, ![3, 1024]⟩
abbrev S2048x1024 : Shape := ⟨2, ![2048, 1024]⟩
abbrev S1x1024 : Shape := ⟨2, ![1, 1024]⟩
abbrev S1 : Shape := ⟨1, ![1]⟩
abbrev S_ : Shape := ⟨0, ![]⟩
abbrev S16x1 : Shape := ⟨2, ![16, 1]⟩

abbrev nBuf : Space → Nat
  | .hbm => 39
  | .vmem => 8
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x40, .f32⟩
  | .hbm, ⟨3, _⟩ => ⟨S16, .i32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i1⟩
  | .hbm, ⟨14, _⟩ => ⟨S_, .i32⟩
  | .hbm, ⟨15, _⟩ => ⟨S16x1, .i32⟩
  | .hbm, ⟨16, _⟩ => ⟨S16x1, .i32⟩
  | .hbm, ⟨17, _⟩ => ⟨S16x1, .i32⟩
  | .hbm, ⟨18, _⟩ => ⟨S16x1x1, .i32⟩
  | .hbm, ⟨19, _⟩ => ⟨S1, .i32⟩
  | .hbm, ⟨20, _⟩ => ⟨S_, .i32⟩
  | .hbm, ⟨21, _⟩ => ⟨S16x1x1, .i32⟩
  | .hbm, ⟨22, _⟩ => ⟨S16x1x1, .i1⟩
  | .hbm, ⟨23, _⟩ => ⟨S1x1x1, .i32⟩
  | .hbm, ⟨24, _⟩ => ⟨S16x1x1, .i32⟩
  | .hbm, ⟨25, _⟩ => ⟨S16x1x1, .i1⟩
  | .hbm, ⟨26, _⟩ => ⟨S16x1x1, .i1⟩
  | .hbm, ⟨27, _⟩ => ⟨S_, .i1⟩
  | .hbm, ⟨28, _⟩ => ⟨S16x1, .i1⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1, .f32⟩
  | .local _ .vmem, ⟨5, _⟩ => ⟨S1x1x1, .f32⟩
  | .local _ .vmem, ⟨6, _⟩ => ⟨S2048x1, .f32⟩
  | .local _ .vmem, ⟨7, _⟩ => ⟨S1x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v38 : BitVec 1 := Scalar.cmpi .eq arg1 c1_i32
  let v39 : BitVec 32 := Scalar.extui v38
  let c0_i32_20 : BitVec 32 := 0#32
  let v40 : BitVec 1 := Scalar.cmpi .ne v39 c0_i32_20
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S2048x3_S2048 : S2048x3.Reduces [1] S2048
  shapeCasts_S2048_S2048x1 : S2048.ShapeCasts S2048x1
  reduces_S1024x3_S1024 : S1024x3.Reduces [1] S1024
  shapeCasts_S1024_S1024x1 : S1024.ShapeCasts S1024x1
  transposes_S1024x3_p1_0_S3x1024 : S1024x3.Transposes [1, 0] S3x1024
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  reduces_S2048x1_S1 : S2048x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S16x1x1_S16 : S16x1x1.ShapeCasts S16
  reducesTo_S16_S_d0 : S16.ReducesTo [0] S_
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  reducesTo_S16x1_S_d0_1 : S16x1.ReducesTo [0, 1] S_
  dot_S2048x3_S3x1024_S2048x1024_1_0_0_1_n_n_wf : DotDims.WF S2048x3 S3x1024 S2048x1024 [1] [0] [0] [1] [] []
  gather_S16x40_S16x1x1_S16x1_n_1_0_0_1_2_11_wf : GatherDims.WF S16x40 S16x1x1 S16x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x2048x3.size a
  hwx0_0 : ∀ i : grid0.Coords, EltTy.bits .f32 = 32 ∨ (Rect.block (s := S16x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x2048x3.size a
  hwx0_1 : ∀ i : grid0.Coords, EltTy.bits .f32 = 32 ∨ (Rect.block (s := S16x2048x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf
def gather_S16x40_S16x1x1_S16x1_n_1_0_0_1_2_11 : GatherDims S16x40 S16x1x1 S16x1 where
  offsetDims := []
  collapsedSliceDims := [1]
  operandBatchingDims := [0]
  startIndicesBatchingDims := [0]
  startIndexMap := [1]
  indexVectorDim := 2
  sliceSizes := ![1, 1]
  wf := gather_S16x40_S16x1x1_S16x1_n_1_0_0_1_2_11_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S16x40 : Shape := ⟨2, ![16, 40]⟩
abbrev S16 : Shape := ⟨1, ![16]⟩
abbrev S16x1 : Shape := ⟨2, ![16, 1]⟩
abbrev S_ : Shape := ⟨0, ![]⟩
abbrev S16x1x1 : Shape := ⟨3, ![16, 1, 1]⟩
abbrev S1 : Shape := ⟨1, ![1]⟩
abbrev S1x1x1 : Shape := ⟨3, ![1, 1, 1]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x40, .f32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i1⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S16x1, .i32⟩
  | .hbm, ⟨12, _⟩ => ⟨S16x1x1, .i32⟩
  | .hbm, ⟨13, _⟩ => ⟨S1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S1x1x1, .i32⟩
  | .hbm, ⟨18, _⟩ => ⟨S16x1x1, .i32⟩
  | .hbm, ⟨19, _⟩ => ⟨S16x1x1, .i1⟩
  | .hbm, ⟨20, _⟩ => ⟨S16x1x1, .i1⟩
  | .hbm, ⟨21, _⟩ => ⟨S_, .i1⟩
  | .hbm, ⟨22, _⟩ => ⟨S16x1, .i1⟩
  | .hbm, ⟨23, _⟩ => ⟨S16x1, .f32⟩
  | .hbm, ⟨24, _⟩ => ⟨S_, .f32⟩
  | .hbm, ⟨25, _⟩ => ⟨S16x1, .f32⟩
  | .hbm, ⟨26, _⟩ => ⟨S16x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x2048x3, .f32⟩
  | .hbm, ⟨33, _⟩ => ⟨S_, .f32⟩
  | .hbm, ⟨34, _⟩ => ⟨S16x2048, .f32⟩
  | .hbm, ⟨35, _⟩ => ⟨S16x2048x3, .f32⟩
  | .hbm, ⟨36, _⟩ => ⟨S_, .f32⟩
  | .hbm, ⟨37, _⟩ => ⟨S16x2048, .f32⟩
  | .hbm, ⟨38, _⟩ => ⟨S16x2048x2048, .f32⟩
  | .hbm, ⟨39, _⟩ => ⟨S16x2048x1, .f32⟩
  | .hbm, ⟨40, _⟩ => ⟨S16x1x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048, .f32⟩
  | .hbm, ⟨50, _⟩ => ⟨S_, .f32⟩
  | .hbm, ⟨51, _⟩ => ⟨S16x2048, .f32⟩
  | .hbm, ⟨52, _⟩ => ⟨S_, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_4 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_cst_6 : Ref sig .tc := ⟨.hbm, 52, rfl⟩
abbrev main_v20 : Ref sig .tc := ⟨.hbm, 53, rfl⟩
abbrev main_cst_7 : Ref sig .tc := ⟨.hbm, 54, rfl⟩
abbrev main_v21 : Ref sig .tc := ⟨.hbm, 55, rfl⟩
abbrev main_v22 : Ref sig .tc := ⟨.hbm, 56, rfl⟩
abbrev main_cst_8 : Ref sig .tc := ⟨.hbm, 57, rfl⟩
abbrev main_v23 : Ref sig .tc := ⟨.hbm, 58, rfl⟩
abbrev main_cst_9 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_10 : Ref sig .tc := ⟨.hbm, 63, rfl⟩
abbrev main_v27 : Ref sig .tc := ⟨.hbm, 64, rfl⟩
abbrev main_cst_11 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  shapeCasts_S16x1_S16x1x1 : S16x1.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  h_S_ : 0 < S_.numel
  reducesTo_S16x1_S_d0_1 : S16x1.ReducesTo [0, 1] S_
  reducesTo_S16x2048x3_S16x2048_d2 : S16x2048x3.ReducesTo [2] S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  reducesTo_S16x2048_S16_d1 : S16x2048.ReducesTo [1] S16
  bcast_S_S16 : S_.BroadcastsInDim S16 (![] : Fin 0 → Fin S16.rank)
  reducesTo_S16_S_d0 : S16.ReducesTo [0] S_
  gather_S16x40_S16x1x1_S16x1_n_1_0_0_1_2_11_wf : GatherDims.WF S16x40 S16x1x1 S16x1 [] [1] [0] [1] [0] 2 ![1, 1]
  dot_S16x2048x3_S16x2048x3_S16x2048x2048_2_2_1_1_0_0_wf : DotDims.WF S16x2048x3 S16x2048x3 S16x2048x2048 [2] [2] [1] [1] [0] [0]

variable [Facts₀]

def gather_S16x40_S16x1x1_S16x1_n_1_0_0_1_2_11 : GatherDims S16x40 S16x1x1 S16x1 where
  offsetDims := []
  collapsedSliceDims := [1]
  operandBatchingDims := [0]
  startIndicesBatchingDims := [0]
  startIndexMap := [1]
  indexVectorDim := 2
  sliceSizes := ![1, 1]
  wf := gather_S16x40_S16x1x1_S16x1_n_1_0_0_1_2_11_wf
def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.KernelPieces.lean ====
/-
  What one run of the kernel body leaves behind, as values of its loads.

  The body runs in two ways. At the first half of Y (case A) it first resets the running least values to +∞ and the
  running sum to 0, then folds the half in: the running least becomes the row-least payload over the reset value, the
  running sum the column-sum payload over the reset value; nothing is written to the output. At the second half (case B)
  it folds the half into what the first left, and writes the output from the two updated running values.
-/
import proofs.«131201_j79207786873276_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A, the running least values: the row-least payload of the two blocks over the reset value. -/
theorem sout_A_0 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x1x1 .f32) (h4 : a4.IsWhole) (a5 : Memref sig .tc .vmem S2048x1 .f32) (h5 : a5.IsWhole) (a6 : Memref sig .tc .vmem S1x1 .f32) (h6 : a6.IsWhole) (hc0 : cond0_0 i) (hc1 : ¬cond0_1 i)
    (x0 : Vec F S1x2048x3 .f32) (x1 : Vec F S1x1024x3 .f32) :
    sout0_A_0 c i a2 h2 a3 h3 a4 h4 a5 h5 a6 h6 hc0 hc1 x0 x1 = k0_pay6 x0 x1 (k0_pay3 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S2048x1) hz2, View.readCov_unit_zero (S := S2048x1) _ hz2]
  simp only [View.readAt_eq_ld, h2.read_unread, h3.read_unread, View.ld_unit_zero (S := S1x2048x3) hz3,
    View.ld_unit_zero (S := S1x1024x3) hz3]

/-- Case A, the running sum: the column-sum payload of the two blocks over the reset value. -/
theorem sout_A_1 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x1x1 .f32) (h4 : a4.IsWhole) (a5 : Memref sig .tc .vmem S2048x1 .f32) (h5 : a5.IsWhole) (a6 : Memref sig .tc .vmem S1x1 .f32) (h6 : a6.IsWhole) (hc0 : cond0_0 i) (hc1 : ¬cond0_1 i)
    (x0 : Vec F S1x2048x3 .f32) (x1 : Vec F S1x1024x3 .f32) :
    sout0_A_1 c i a2 h2 a3 h3 a4 h4 a5 h5 a6 h6 hc0 hc1 x0 x1 = k0_pay1 (k0_pay7 x0 x1 (k0_pay4 (F := F))) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S1x2048x3) hz3,
    View.ld_unit_zero (S := S1x1024x3) hz3]

/-- Case B, the running least values: the row-least payload over what the point before left. -/
theorem sout_B_0 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x1x1 .f32) (h4 : a4.IsWhole) (a5 : Memref sig .tc .vmem S2048x1 .f32) (h5 : a5.IsWhole) (a6 : Memref sig .tc .vmem S1x1 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x1 .f32) :
    sout0_B_0 c i a2 h2 a3 h3 a4 h4 a5 h5 a6 h6 hc0 hc1 x0 x1 xs0 xs1 = k0_pay6 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, View.ld_unit_zero (S := S1x2048x3) hz3,
    View.ld_unit_zero (S := S1x1024x3) hz3, View.ld_unit_zero (S := S2048x1) hz2]

/-- Case B, the running sum: the column-sum payload over what the point before left. -/
theorem sout_B_1 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x1x1 .f32) (h4 : a4.IsWhole) (a5 : Memref sig .tc .vmem S2048x1 .f32) (h5 : a5.IsWhole) (a6 : Memref sig .tc .vmem S1x1 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x1 .f32) :
    sout0_B_1 c i a2 h2 a3 h3 a4 h4 a5 h5 a6 h6 hc0 hc1 x0 x1 xs0 xs1 = k0_pay1 (k0_pay7 x0 x1 xs1) := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h6.read_unread, View.ld_unit_zero (S := S1x2048x3) hz3,
    View.ld_unit_zero (S := S1x1024x3) hz3, View.ld_unit_zero (S := S1x1) hz2]

/-- Case B, the output: the final payload of the two running values as this point updated them. -/
theorem out_B_2 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x1x1 .f32) (h4 : a4.IsWhole) (a5 : Memref sig .tc .vmem S2048x1 .f32) (h5 : a5.IsWhole) (a6 : Memref sig .tc .vmem S1x1 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x1 .f32) :
    out0_B_2 c i a2 h2 a3 h3 a4 h4 a5 h5 a6 h6 hc0 hc1 x0 x1 xs0 xs1 = k0_pay2 (k0_pay6 x0 x1 xs0) (k0_pay1 (k0_pay7 x0 x1 xs1)) := by
  unfold out0_B_2
  rw [View.read_writes_eq_canon _ _ _ (cover0_B_2 c i a2 h2 a3 h3 a4 h4 a5 h5 a6 h6 hc0 hc1 x0 x1 xs0 xs1)]
  unfold kernelRun0_B
  dsimp only
  sl_unfold_words
  rw [View.canon_unit_zero hz3, View.readCov_unit_zero (S := S2048x1) _ hz2, View.readCov_unit_zero (S := S1x1) _ hz2]
  simp only [View.readAt_eq_ld, h2.read_unread, h3.read_unread, h5.read_unread, h6.read_unread,
    View.ld_unit_zero (S := S1x2048x3) hz3, View.ld_unit_zero (S := S1x1024x3) hz3, View.ld_unit_zero (S := S2048x1) hz2,
    View.ld_unit_zero (S := S1x1) hz2]

end Cert.KernelIdeal.Pieces

end
-- ==== Proof.KernelPoints.lean ====
/-
  What the kernel holds after each grid point, in terms of the argument arrays.

  The grid has 32 points; point t works on batch t / 2 and on half t % 2 of Y's cloud. X's window at point t is the whole
  cloud of batch t / 2; Y's window is points 1024 (t % 2) … 1024 (t % 2) + 1023 of that batch's cloud; the output's block
  is entry (t / 2, 0, 0). An even point is a first half (the running values restart), an odd point a second half (it
  continues from the even point before it and writes the output).
-/
import proofs.«131201_j79207786873276_2_alg».proof.Proof.KernelPieces
import Idealize.ShloMosaic.Lib.ValueIdx

set_option maxRecDepth 16384

noncomputable section

namespace Cert.KernelIdeal.Points

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three windows' block indices at point t, decided over the grid. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- X's block at point t is the cloud of batch t / 2. -/
theorem xblock_apply (c : Dev nD) (t : Fin cfg0.N) (b : Fin 16) (hb : b.val = t.val / 2) (n : Fin 2048) (k : Fin 3) :
    (iblk m c 0 t : Vec F S1x2048x3 .f32) (ix3 (0 : Fin 1) n k) = V m c main_arg0 (ix3 b n k) := by
  obtain ⟨h0, h1, h2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; rw [h0, hb]; omega
  | ⟨1, _⟩ => show win0_0.index t (1 : Fin 3) * 2048 + 1 * n.val = n.val; rw [h1]; omega
  | ⟨2, _⟩ => show win0_0.index t (2 : Fin 3) * 3 + 1 * k.val = k.val; rw [h2]; omega

/-- Y's block at point t is half t % 2 of the cloud of batch t / 2. -/
theorem yblock_apply (c : Dev nD) (t : Fin cfg0.N) (b : Fin 16) (hb : b.val = t.val / 2) (j : Fin 1024) (q : Fin 2048)
    (hq : q.val = 1024 * (t.val % 2) + j.val) (k : Fin 3) :
    (iblk m c 1 t : Vec F S1x1024x3 .f32) (ix3 (0 : Fin 1) j k) = V m c main_arg1 (ix3 b q k) := by
  obtain ⟨-, -, -, h0, h1, h2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; rw [h0, hb]; omega
  | ⟨1, _⟩ => show win0_1.index t (1 : Fin 3) * 1024 + 1 * j.val = q.val; rw [h1, hq]; omega
  | ⟨2, _⟩ => show win0_1.index t (2 : Fin 3) * 3 + 1 * k.val = k.val; rw [h2]; omega

set_option maxHeartbeats 1600000 in
/-- After an even point the carried values are the two payloads of that point's blocks over the reset values. -/
theorem carried_even (c : Dev nD) (s : Fin cfg0.N) (h0 : s.val % 2 = 0) :
    (outsAt0 m c s.val s.isLt).2.1 = k0_pay6 (iblk m c 0 s) (iblk m c 1 s) (k0_pay3 (F := F))
    ∧ (outsAt0 m c s.val s.isLt).2.2 = k0_pay1 (k0_pay7 (iblk m c 0 s) (iblk m c 1 s) (k0_pay4 (F := F))) := by
  have h1 : ¬s.val % 2 = 1 := by omega
  have e := outsAt0_A m c s h0 h1
  constructor
  · exact (congrArg (fun p => p.2.1) e).trans
      (Pieces.sout_A_0 c (grid0.coords s) (ms0_0 s) (hs0_0 s) (ms0_1 s) (hs0_1 s) (ms0_2 s) (hs0_2 s) scM0_0 (Memref.isWhole_whole _) scM0_1 (Memref.isWhole_whole _) ((hcond0_0 s).mpr h0) (fun h => h1 ((hcond0_1 s).mp h)) (iblk m c 0 s) (iblk m c 1 s))
  · exact (congrArg (fun p => p.2.2) e).trans
      (Pieces.sout_A_1 c (grid0.coords s) (ms0_0 s) (hs0_0 s) (ms0_1 s) (hs0_1 s) (ms0_2 s) (hs0_2 s) scM0_0 (Memref.isWhole_whole _) scM0_1 (Memref.isWhole_whole _) ((hcond0_0 s).mpr h0) (fun h => h1 ((hcond0_1 s).mp h)) (iblk m c 0 s) (iblk m c 1 s))

set_option maxHeartbeats 1600000 in
/-- After an odd point the output's staging buffer holds the final payload of the two running values, each updated twice:
    by the even point before (from the reset values) and by this point. -/
theorem out_odd (c : Dev nD) (t : Fin cfg0.N) (h1 : t.val % 2 = 1) (s : Fin cfg0.N) (hs : s.val = t.val - 1) :
    (outsAt0 m c t.val t.isLt).1
      = k0_pay2 (k0_pay6 (iblk m c 0 t) (iblk m c 1 t) (k0_pay6 (iblk m c 0 s) (iblk m c 1 s) (k0_pay3 (F := F))))
          (k0_pay1 (k0_pay7 (iblk m c 0 t) (iblk m c 1 t) (k0_pay1 (k0_pay7 (iblk m c 0 s) (iblk m c 1 s) (k0_pay4 (F := F)))))) := by
  have h0 : ¬t.val % 2 = 0 := by omega
  have hs0 : s.val % 2 = 0 := by omega
  obtain ⟨e0, e1⟩ := carried_even m c s hs0
  obtain ⟨sv, hsv⟩ := s
  obtain rfl : sv = t.val - 1 := hs
  have e := outsAt0_B m c t h0 h1
  refine (congrArg (fun p => p.1) e).trans ?_
  refine (Pieces.out_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) _ _).trans ?_
  exact congrArg₂ k0_pay2 (congrArg (k0_pay6 (iblk m c 0 t) (iblk m c 1 t)) e0)
    (congrArg k0_pay1 (congrArg (k0_pay7 (iblk m c 0 t) (iblk m c 1 t)) e1))

end Cert.KernelIdeal.Points

end
-- ==== Proof.ChamferSpec.lean ====
/-
  The mathematics of one pair of point clouds, on the extended reals.

  For clouds X, Y of 2048 points of three coordinates each, the squared distance of X n and Y m is written expanded,
  |X n|² + |Y m|² − 2 (X n · Y m). For each point of X take the least such value over Y, for each point of Y the least
  over X; the pair's loss is the mean of the first plus the mean of the second (each a sum divided by the same count).

  Two arrangements of that computation are compared. The whole one takes each least value over all 2048 indices at once.
  The tiled one cuts Y in two halves of 1024 points: the least over Y for a point of X is the least of the two halves'
  least values, and the sum over Y of least values is the sum of the two halves' sums. Taking a least value and adding are
  both associative and commutative on the extended reals, so the two arrangements agree with no finiteness assumption.
-/
import Idealize.ShloMosaic.PureOps.Ideal.Laws
import Idealize.ShloMosaic.Lib.ValueIdx

noncomputable section

open scoped BigOperators

namespace Cert.Chamfer

open Idealize.ShloMosaic

/-- The value of the word that starts every least value (+∞), of the factor's word (2), and of the divisor's word (2048);
    none of them is ever evaluated: the same word stands on both sides. -/
abbrev posInf : EReal := Ideal.ofBits .f32 0x7F800000#32
abbrev twoW : EReal := Ideal.ofBits .f32 0x40000000#32
abbrev countW : EReal := Ideal.ofBits .f32 0x45000000#32

/-- The expanded squared distance of two points: |x|² + |y|² − two · (x · y). -/
def sqDist (two : EReal) (x y : Fin 3 → EReal) : EReal :=
  (∑ k, x k * x k + ∑ k, y k * y k) - two * ∑ k, x k * y k

/-- The least of a finite family and a starting value. -/
def least {n : Nat} (top : EReal) (f : Fin n → EReal) : EReal :=
  (Finset.univ : Finset (Fin n)).fold min top f

/-- A value is below the least exactly when it is below the start and below every member. -/
theorem le_least {n : Nat} (top : EReal) (f : Fin n → EReal) (c : EReal) :
    c ≤ least top f ↔ c ≤ top ∧ ∀ k, c ≤ f k := by
  unfold least
  rw [Finset.le_fold_min]
  simp only [Finset.mem_univ, forall_true_left]

/-- Index `j` of the first half of Y. -/
def lo (j : Fin 1024) : Fin 2048 := ⟨j.val, by have := j.isLt; omega⟩
/-- Index `j` of the second half of Y. -/
def hi (j : Fin 1024) : Fin 2048 := ⟨1024 + j.val, by have := j.isLt; omega⟩

/-- A property of all 2048 indices is one of both halves. -/
theorem forall_halves (P : Fin 2048 → Prop) : (∀ m, P m) ↔ (∀ j, P (lo j)) ∧ (∀ j, P (hi j)) := by
  constructor
  · intro h; exact ⟨fun j => h _, fun j => h _⟩
  · rintro ⟨h0, h1⟩ m
    by_cases hm : m.val < 1024
    · have := h0 ⟨m.val, hm⟩
      exact this
    · have h2 : m.val - 1024 < 1024 := by have := m.isLt; omega
      have := h1 ⟨m.val - 1024, h2⟩
      have e : hi ⟨m.val - 1024, h2⟩ = m := Fin.ext (by show 1024 + (m.val - 1024) = m.val; omega)
      rwa [e] at this

/-- The least over all of Y is the least of: the start, the first half's least, the second half's least. -/
theorem least_halves (top : EReal) (f : Fin 2048 → EReal) :
    least top f = min (min top (least top fun j => f (lo j))) (least top fun j => f (hi j)) := by
  refine eq_of_forall_le_iff fun c => ?_
  rw [le_least, le_min_iff, le_min_iff, le_least, le_least, forall_halves (fun m => c ≤ f m)]
  constructor
  · rintro ⟨ht, h0, h1⟩; exact ⟨⟨ht, ht, h0⟩, ht, h1⟩
  · rintro ⟨⟨ht, _, h0⟩, _, h1⟩; exact ⟨ht, h0, h1⟩

/-- The sum over all of Y is the sum over the first half plus the sum over the second. -/
theorem sum_halves (g : Fin 2048 → EReal) : ∑ m, g m = ∑ j, g (lo j) + ∑ j, g (hi j) := by
  have h := Fin.sum_univ_add (M := EReal) (a := 1024) (b := 1024) (fun i : Fin (1024 + 1024) => g i)
  exact h

/-- One pair's loss, each least value taken over all 2048 indices at once; `zero` is the value the sums start from,
    `count` the divisor of both means. -/
def pairLoss (top two zero count : EReal) (X Y : Fin 2048 → Fin 3 → EReal) : EReal :=
  Ideal.div (zero + ∑ n, least top fun m => sqDist two (X n) (Y m)) count
    + Ideal.div (zero + ∑ m, least top fun n => sqDist two (X n) (Y m)) count

/-- The least over the first half of Y for point `n` of X, from the start. -/
def rowLeast0 (top two : EReal) (X Y : Fin 2048 → Fin 3 → EReal) (n : Fin 2048) : EReal :=
  min top (least top fun j => sqDist two (X n) (Y (lo j)))
/-- The running least after the second half. -/
def rowLeast1 (top two : EReal) (X Y : Fin 2048 → Fin 3 → EReal) (n : Fin 2048) : EReal :=
  min (rowLeast0 top two X Y n) (least top fun j => sqDist two (X n) (Y (hi j)))
/-- The running sum of the least values of the first half's points, from `zero`. -/
def colSum0 (top two zero : EReal) (X Y : Fin 2048 → Fin 3 → EReal) : EReal :=
  zero + ∑ j, least top fun n => sqDist two (X n) (Y (lo j))
/-- The running sum after the second half. -/
def colSum1 (top two zero : EReal) (X Y : Fin 2048 → Fin 3 → EReal) : EReal :=
  colSum0 top two zero X Y + ∑ j, least top fun n => sqDist two (X n) (Y (hi j))

/-- One pair's loss, computed half by half. -/
def pairLossTiled (top two zero count : EReal) (X Y : Fin 2048 → Fin 3 → EReal) : EReal :=
  Ideal.div (∑ n, rowLeast1 top two X Y n) count + Ideal.div (colSum1 top two zero X Y) count

/-- The two arrangements agree (the sums starting from 0). -/
theorem pairLossTiled_eq (top two count : EReal) (X Y : Fin 2048 → Fin 3 → EReal) :
    pairLossTiled top two 0 count X Y = pairLoss top two 0 count X Y := by
  unfold pairLossTiled pairLoss colSum1 colSum0 rowLeast1 rowLeast0
  rw [sum_halves (fun m => least top fun n => sqDist two (X n) (Y m)), zero_add, zero_add, zero_add]
  congr 2
  exact Finset.sum_congr rfl fun n _ => (least_halves top fun m => sqDist two (X n) (Y m)).symm

end Cert.Chamfer

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«131201_j79207786873276_2_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.KernelPay.lean ====
/-
  The kernel body's arithmetic, read at an index at the ideal values.

  At one grid point the body holds X's whole cloud (2048 points) and one half of Y's (1024 points). It forms the tile of
  expanded squared distances, folds each row's least value into the running per-point least, adds the sum of the columns'
  least values to the running sum, and at the second half writes the pair's loss: the mean of the running least values
  plus the running sum divided by the same count.
-/
import proofs.«131201_j79207786873276_2_alg».proof.Proof.Gen.KernelIdeal.Skeleton
import proofs.«131201_j79207786873276_2_alg».proof.Proof.ChamferSpec
import proofs.«131201_j79207786873276_2_alg».proof.Proof.LibColumn
import proofs.«131201_j79207786873276_2_alg».proof.Proof.LibMatmulRows
import proofs.«131201_j79207786873276_2_alg».proof.Proof.LibRowForms
import proofs.«131201_j79207786873276_2_alg».proof.Proof.LibLeast
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Chamfer
open Cert.Lib

/-- Point `n` of a staged cloud (a block with a leading unit axis). -/
abbrev pt {P : Nat} (v : (⟨3, ![1, P, 3]⟩ : Shape).Idx → EReal) (n : Fin P) : Fin 3 → EReal := fun k => v (ix3 (0 : Fin 1) n k)

/-- The distance tile at (n, j): the expanded squared distance of X's point n and the half's point j. -/
theorem pay5_apply (v3 : Vec Ideal S1x2048x3 .f32) (v5 : Vec Ideal S1x1024x3 .f32) (n : Fin 2048) (j : Fin 1024) :
    k0_pay5 (F := Ideal) v3 v5 (ix2 n j) = sqDist twoW (pt v3 n) (pt v5 j) := by
  unfold k0_pay5
  dsimp only
  rw [subf_apply, addf_apply, mulf_apply, broadcast_apply]
  rw [Column.colBroadcast_apply, Column.col_apply, Least.rowSum_f32]
  rw [RowForms.rowBroadcast_apply, transpose_ix2_apply, Column.col_apply, Least.rowSum_f32]
  simp only [matmul]
  rw [MatmulRows.matmul_transposed_apply dot_S2048x3_S3x1024_S2048x1024_1_0_0_1_n_n rfl]
  simp only [mulf_apply, RowForms.unslab_apply]
  rfl

/-- The cast of a [1, 1] value to its own shape changes nothing. -/
theorem pay1_eq (v : FVec Ideal S1x1 .f32) : k0_pay1 (F := Ideal) v = v := by
  unfold k0_pay1
  exact shapeCast_self v _

/-- The reset value of the running least values is +∞ at every point. -/
theorem pay3_apply (n : Fin 2048) : k0_pay3 (F := Ideal) (ix2 n (0 : Fin 1)) = posInf := by
  unfold k0_pay3
  rw [shapeCast_self]
  rfl

/-- The reset value of the running sum is 0. -/
theorem pay4_apply : k0_pay4 (F := Ideal) (ix2 (0 : Fin 1) (0 : Fin 1)) = 0 := by
  unfold k0_pay4
  rw [shapeCast_self]
  exact Ideal.ofBits_zero_f32

/-- The running least value of X's point n after a half: the least of what was there and the half's least distance. -/
theorem pay6_apply (v3 : Vec Ideal S1x2048x3 .f32) (v5 : Vec Ideal S1x1024x3 .f32) (v24 : Vec Ideal S2048x1 .f32)
    (n : Fin 2048) :
    k0_pay6 (F := Ideal) v3 v5 v24 (ix2 n (0 : Fin 1))
      = min (v24 (ix2 n (0 : Fin 1))) (least posInf fun j => sqDist twoW (pt v3 n) (pt v5 j)) := by
  unfold k0_pay6
  dsimp only
  rw [shapeCast_self, minimumf_apply, Column.col_apply, Least.rowMin_f32]
  simp only [pay5_apply]
  rfl

/-- The running sum after a half: what was there plus the sum over the half's points of their least distance to X. -/
theorem pay7_apply (v3 : Vec Ideal S1x2048x3 .f32) (v5 : Vec Ideal S1x1024x3 .f32) (v31 : Vec Ideal S1x1 .f32) :
    k0_pay7 (F := Ideal) v3 v5 v31 (ix2 (0 : Fin 1) (0 : Fin 1))
      = v31 (ix2 (0 : Fin 1) (0 : Fin 1)) + ∑ j : Fin 1024, least posInf fun n => sqDist twoW (pt v3 n) (pt v5 j) := by
  unfold k0_pay7
  dsimp only
  rw [addf_apply, Column.col_apply, Least.rowSum_f32]
  refine congrArg (v31 (ix2 (0 : Fin 1) (0 : Fin 1)) + ·) (Finset.sum_congr rfl fun j _ => ?_)
  rw [RowForms.vecRow_apply, Least.colMin_f32]
  simp only [pay5_apply]
  rfl

/-- The output value: the mean of the running least values plus the running sum over the same count. -/
theorem pay2_apply (v41 : Vec Ideal S2048x1 .f32) (v46 : Vec Ideal S1x1 .f32) :
    k0_pay2 (F := Ideal) v41 v46 (ix3 (0 : Fin 1) (0 : Fin 1) (0 : Fin 1))
      = Ideal.div (∑ n : Fin 2048, v41 (ix2 n (0 : Fin 1))) countW + Ideal.div (v46 (ix2 (0 : Fin 1) (0 : Fin 1))) countW := by
  unfold k0_pay2
  dsimp only
  rw [shapeCast_ab_1ab_apply, addf_apply, divf_apply, divf_apply, Column.col_apply, Least.colSum_f32]
  rfl

/-- The value written at the second half, over the blocks of both halves: when the two X blocks are one cloud X and the two
    Y blocks are the two halves of one cloud Y, it is that pair's loss computed half by half. -/
theorem two_halves_value (X0 : Vec Ideal S1x2048x3 .f32) (Y0 : Vec Ideal S1x1024x3 .f32)
    (X1 : Vec Ideal S1x2048x3 .f32) (Y1 : Vec Ideal S1x1024x3 .f32) (X Y : Fin 2048 → Fin 3 → EReal)
    (hX0 : ∀ n, pt X0 n = X n) (hX1 : ∀ n, pt X1 n = X n) (hY0 : ∀ j, pt Y0 j = Y (lo j)) (hY1 : ∀ j, pt Y1 j = Y (hi j)) :
    k0_pay2 (F := Ideal) (k0_pay6 X1 Y1 (k0_pay6 X0 Y0 (k0_pay3 (F := Ideal))))
        (k0_pay1 (k0_pay7 X1 Y1 (k0_pay1 (k0_pay7 X0 Y0 (k0_pay4 (F := Ideal))))))
        (ix3 (0 : Fin 1) (0 : Fin 1) (0 : Fin 1))
      = pairLossTiled posInf twoW 0 countW X Y := by
  rw [pay2_apply]
  simp only [pay6_apply, pay1_eq, pay7_apply, pay3_apply, pay4_apply, hX0, hX1, hY0, hY1]
  rfl

end Cert.KernelIdeal.Pay

end
-- ==== Proof.KernelArray.lean ====
/-
  The kernel's output array after the run.

  Entry (b, 0, 0) of the output is written once, at grid point 2 b + 1 (the second half of batch b): it is the pair's loss
  of batch b's two clouds, computed half by half. The 16 odd points' blocks are the 16 entries of the array, so after the
  run the whole array is that function of the two argument arrays.
-/
import proofs.«131201_j79207786873276_2_alg».proof.Proof.KernelPoints
import proofs.«131201_j79207786873276_2_alg».proof.Proof.KernelPay
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

variable (m : (ℓ : Loc nD τ sig) → Buf (Elt Ideal) ℓ)

/-- Cloud `b` of an array of 16 clouds of 2048 points. -/
abbrev cloud (x : S16x2048x3.Idx → EReal) (b : Fin 16) : Fin 2048 → Fin 3 → EReal := fun n k => x (ix3 b n k)

/-- The output array as a function of the two argument arrays: entry (b, ·, ·) is batch b's loss, computed half by half. -/
def G (x0 x1 : S16x2048x3.Idx → EReal) : S16x1x1.Idx → EReal := fun i =>
  pairLossTiled posInf twoW 0 countW (cloud x0 ⟨(i 0).val, (i 0).isLt⟩) (cloud x1 ⟨(i 0).val, (i 0).isLt⟩)

set_option maxHeartbeats 3200000 in
/-- What an odd point writes back is its block of `G` of the argument arrays as the region finds them. -/
theorem flushed_eq (c : Dev nD) (t : Fin cfg0.N) (hf : (cfg0.win 2).flush t = true) :
    (dats m 0 c).flushed 2 t = ((cfg0.win 2).blk t).view.read (Elt Ideal) (G (V m c main_arg0) (V m c main_arg1)) := by
  have hN : cfg0.N = 32 := N_0
  have h1 : t.val % 2 = 1 := (flush0_2 t).mp hf
  have hlt : t.val - 1 < cfg0.N := by have := t.isLt; omega
  have hb16 : t.val / 2 < 16 := by have := t.isLt; omega
  obtain ⟨-, -, -, -, -, -, i0, i1, i2⟩ := Points.idx_facts t
  show (cfg0.win 2).cut (grid0.coords t) ((dats m 0 c).after 2 t) = _
  rw [after0_2, Points.out_odd m c t h1 ⟨t.val - 1, hlt⟩ rfl]
  funext y
  have hy : y = (ix3 (0 : Fin 1) (0 : Fin 1) (0 : Fin 1) : S1x1x1.Idx) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  have hemb : ((cfg0.win 2).blk t).view.emb (ix3 (0 : Fin 1) (0 : Fin 1) (0 : Fin 1) : S1x1x1.Idx)
      = (ix3 (⟨t.val / 2, hb16⟩ : Fin 16) (0 : Fin 1) (0 : Fin 1) : S16x1x1.Idx) := funext fun a => Fin.ext (by
    match a with
    | ⟨0, _⟩ => show win0_2.index t (0 : Fin 3) * 1 + 1 * 0 = t.val / 2; omega
    | ⟨1, _⟩ => show win0_2.index t (1 : Fin 3) * 1 + 1 * 0 = 0; omega
    | ⟨2, _⟩ => show win0_2.index t (2 : Fin 3) * 1 + 1 * 0 = 0; omega)
  rw [View.read_apply, hemb]
  refine (Pay.two_halves_value (iblk m c 0 ⟨t.val - 1, hlt⟩) (iblk m c 1 ⟨t.val - 1, hlt⟩) (iblk m c 0 t) (iblk m c 1 t)
    (cloud (V m c main_arg0) ⟨t.val / 2, hb16⟩) (cloud (V m c main_arg1) ⟨t.val / 2, hb16⟩) ?_ ?_ ?_ ?_).trans ?_
  · intro n; funext k
    exact Points.xblock_apply m c ⟨t.val - 1, hlt⟩ ⟨t.val / 2, hb16⟩ (by show t.val / 2 = (t.val - 1) / 2; omega) n k
  · intro n; funext k
    exact Points.xblock_apply m c t ⟨t.val / 2, hb16⟩ rfl n k
  · intro j; funext k
    exact Points.yblock_apply m c ⟨t.val - 1, hlt⟩ ⟨t.val / 2, hb16⟩ (by show t.val / 2 = (t.val - 1) / 2; omega) j (lo j)
      (by show j.val = 1024 * ((t.val - 1) % 2) + j.val; omega) k
  · intro j; funext k
    exact Points.yblock_apply m c t ⟨t.val / 2, hb16⟩ rfl j (hi j) (by show 1024 + j.val = 1024 * (t.val % 2) + j.val; omega) k
  · rfl

/-- An index of the output array is in point `t`'s block exactly when each coordinate is in the block's range. -/
theorem mem_blk (t : Fin cfg0.N) (i : S16x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every entry of the output array is in the block of an odd point: entry (b, 0, 0) in point 2 b + 1's. -/
theorem cover (i : S16x1x1.Idx) : ∃ t : Fin cfg0.N, (cfg0.win 2).flush t = true ∧ i ∈ ((cfg0.win 2).blk t).view.set := by
  have hN : cfg0.N = 32 := N_0
  have h0 : (i 0).val < 16 := (i 0).isLt
  have h1 : (i 1).val < 1 := (i 1).isLt
  have h2 : (i 2).val < 1 := (i 2).isLt
  have ht : 2 * (i 0).val + 1 < cfg0.N := by omega
  obtain ⟨-, -, -, -, -, -, i0, i1, i2⟩ := Points.idx_facts ⟨2 * (i 0).val + 1, ht⟩
  refine ⟨⟨2 * (i 0).val + 1, ht⟩, (flush0_2 _).mpr (by show (2 * (i 0).val + 1) % 2 = 1; omega), ?_⟩
  rw [mem_blk]
  intro a
  match a with
  | ⟨0, _⟩ =>
    show win0_2.index ⟨2 * (i 0).val + 1, ht⟩ (0 : Fin 3) * 1 ≤ (i 0).val
      ∧ (i 0).val < win0_2.index ⟨2 * (i 0).val + 1, ht⟩ (0 : Fin 3) * 1 + 1
    rw [i0]; show (2 * (i 0).val + 1) / 2 * 1 ≤ (i 0).val ∧ (i 0).val < (2 * (i 0).val + 1) / 2 * 1 + 1; omega
  | ⟨1, _⟩ =>
    show win0_2.index ⟨2 * (i 0).val + 1, ht⟩ (1 : Fin 3) * 1 ≤ (i 1).val
      ∧ (i 1).val < win0_2.index ⟨2 * (i 0).val + 1, ht⟩ (1 : Fin 3) * 1 + 1
    rw [i1]; omega
  | ⟨2, _⟩ =>
    show win0_2.index ⟨2 * (i 0).val + 1, ht⟩ (2 : Fin 3) * 1 ≤ (i 2).val
      ∧ (i 2).val < win0_2.index ⟨2 * (i 0).val + 1, ht⟩ (2 : Fin 3) * 1 + 1
    rw [i2]; omega

/-- The output array after the run. -/
theorem final (c : Dev nD) : (dats m 0 c).arrAt 2 cfg0.N = G (V m c main_arg0) (V m c main_arg1) :=
  (dats m 0 c).arrAt_eq_of_cover 2 (G (V m c main_arg0) (V m c main_arg1)) (flushed_eq m c) cover

end Cert.KernelIdeal.Arr

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KernelTail.lean ====
/-
  The host operations after the kernel, and the kernel program's run read back.

  After the region the program reshapes the 16 per-pair losses to a vector, takes their mean (a sum from 0 divided by 16),
  computes the negated mean of the gathered log-probabilities from the other two arguments, and adds the two. The gathered
  part is, operation for operation, the reference's own; only the per-pair losses differ in how they were computed.
-/
import proofs.«131201_j79207786873276_2_alg».proof.Proof.KernelArray
import proofs.«131201_j79207786873276_2_alg».proof.Proof.LibAfter
import proofs.«131201_j79207786873276_2_alg».proof.Proof.Gen.ReferenceIdeal.Read
import Idealize.ShloMosaic.Lib.StableHlo.Run
import Idealize.ShloMosaic.Lib.Tactic

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The program's result from the 16 per-pair losses `out` and the two arguments of the gathered part: the negated mean of
    the gathered log-probabilities plus the mean of the losses. -/
def total (x2 : (⟨S16x40, .f32⟩ : BufTy).Contents (Elt Ideal)) (x3 : (⟨S16, .i32⟩ : BufTy).Contents (Elt Ideal))
    (out : S16x1x1.Idx → EReal) : S_.Idx → EReal :=
  addf (Cert.ReferenceIdeal.Read.val_main_v4 (F := Ideal) x2 x3)
    (Host.divf (F := Ideal)
      (Host.reduceAdd (F := Ideal) (shapeCast S16 out shapeCasts_S16x1x1_S16) (constant (F := Ideal) S_ .f32 0x00000000#32)
        reducesTo_S16_S_d0 h_S_)
      (constant (F := Ideal) S_ .f32 0x41800000#32))

set_option maxHeartbeats 12800000 in
/-- What the host operations after the region leave in the result buffer. -/
theorem tail_value (c : Dev nD) :
    Pipeline.afterTail₀ cfgs (dats m) 0 (V0 m) [hostOps1, hostOps1_1, hostOps1_2] c main_v9
      = total (m ((c : Thread nD τ).loc main_arg2)) (m ((c : Thread nD τ).loc main_arg3)) ((dats m 0 c).arrAt 2 cfg0.N) := by
  unfold Pipeline.afterTail₀
  rw [List.flatten_cons, List.flatten_cons, List.flatten_cons, List.flatten_nil, List.append_nil,
    Cert.Lib.After.after_append, Cert.Lib.After.after_append]
  dsimp only [hostOps1, hostOps1_1, hostOps1_2]
  after_results_simp
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e0 : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c _ _ 2
  rw [e2, e3, e0]
  rfl

end Cert.KernelIdeal.Tail

end
-- ==== Proof.RefSide.lean ====
/-
  The reference, one pair of clouds at a time.

  Read at batch `b`, the reference's per-pair value (the mean over X's points of the least squared distance to Y, plus
  the mean over Y's points of the least squared distance to X) is `Chamfer.pairLoss` of the two clouds of that batch:
  the squared distance entry (b, n, m) is the expanded form over the three coordinates, the two reductions with a
  minimum body are least values over the reduced axis, and the two means are sums from 0 divided by 2048.
-/
import proofs.«131201_j79207786873276_2_alg».proof.Defs
import proofs.«131201_j79207786873276_2_alg».proof.Proof.Gen.ReferenceIdeal.Read
import proofs.«131201_j79207786873276_2_alg».proof.Proof.ChamferSpec

noncomputable section

open scoped BigOperators

namespace Cert.ReferenceIdeal.RefSide

open Cert.ReferenceIdeal Cert.ReferenceIdeal.Gen Cert.ReferenceIdeal.Read
open Idealize.ShloMosaic Idealize.ShloMosaic.ValueIdx Cert.Chamfer

/-- Cloud `b` of an array of 16 clouds of 2048 points. -/
abbrev cloud (x : (⟨S16x2048x3, .f32⟩ : BufTy).Contents (Elt Ideal)) (b : Fin 16) : Fin 2048 → Fin 3 → EReal :=
  fun n k => x (ix3 b n k)

/-- The squared-distance entry (b, n, m): the expanded squared distance of point n of X's cloud b and point m of Y's. -/
theorem dist_apply (x0 x1 : (⟨S16x2048x3, .f32⟩ : BufTy).Contents (Elt Ideal)) (b : Fin 16) (n m : Fin 2048) :
    val_main_v17 (F := Ideal) x0 x1 (ix3 b n m) = sqDist twoW (cloud x0 b n) (cloud x1 b m) := by
  have e6 : ∀ k : Fin 3, idx_main_v6 (idx_main_v10 (idx_main_v12 (ix3 b n m))) k = ix3 b n k := fun k =>
    funext fun a => Fin.ext (by match a with | ⟨0, _⟩ => rfl | ⟨1, _⟩ => rfl | ⟨2, _⟩ => rfl)
  have e8 : ∀ k : Fin 3, idx_main_v8 (idx_main_v11 (idx_main_v13 (ix3 b n m))) k = ix3 b m k := fun k =>
    funext fun a => Fin.ext (by match a with | ⟨0, _⟩ => rfl | ⟨1, _⟩ => rfl | ⟨2, _⟩ => rfl)
  have el : ∀ k : Fin 3, lidx_main_v9 (ix3 b n m) k = ix3 b n k := fun k =>
    funext fun a => Fin.ext (by match a with | ⟨0, _⟩ => rfl | ⟨1, _⟩ => rfl | ⟨2, _⟩ => rfl)
  have er : ∀ k : Fin 3, ridx_main_v9 (ix3 b n m) k = ix3 b m k := fun k =>
    funext fun a => Fin.ext (by match a with | ⟨0, _⟩ => rfl | ⟨1, _⟩ => rfl | ⟨2, _⟩ => rfl)
  rw [val_main_v17_apply, val_main_v14_apply, val_main_v16_apply, val_main_v12_apply, val_main_v13_apply,
    val_main_v10_apply, val_main_v11_apply, val_main_v6_apply, val_main_v8_apply, val_main_v15_apply,
    val_main_cst_3_apply, val_main_v9_apply]
  simp only [val_main_v5_apply, val_main_v7_apply, val_main_cst_1_apply, val_main_cst_2_apply, e6, e8, el, er,
    Ideal.addf_def, Ideal.subf_def, Ideal.mulf_def, Ideal.ofBits_def, Ideal.ofBits_zero_f32, zero_add]
  rfl

/-- The reduction over Y's points: for point n of X, the least squared distance to Y. -/
theorem rowLeast_apply (x0 x1 : (⟨S16x2048x3, .f32⟩ : BufTy).Contents (Elt Ideal)) (b : Fin 16) (n : Fin 2048) :
    val_main_v18 (F := Ideal) x0 x1 (ix2 b n) = least posInf fun m => sqDist twoW (cloud x0 b n) (cloud x1 b m) := by
  have h : S16x2048x2048.Reduces [2] S16x2048 := by decide
  unfold val_main_v18
  rw [Host.reduce_eq_fold_single FloatOps.minimumf _ _ reducesTo_S16x2048x2048_S16x2048_d2 h h_S_]
  have hf : (val_main_v17 (F := Ideal) x0 x1 ∘ h.lift (ix2 b n))
      = fun m : Fin 2048 => sqDist twoW (cloud x0 b n) (cloud x1 b m) := funext fun (m : Fin 2048) => by
    have e : h.lift (ix2 b n) m = ix3 b n m := funext fun a => Fin.ext (by
      match a with | ⟨0, _⟩ => rfl | ⟨1, _⟩ => rfl | ⟨2, _⟩ => rfl)
    show val_main_v17 (F := Ideal) x0 x1 (h.lift (ix2 b n) m) = _
    rw [e, dist_apply]
  exact congrArg (fun f => Finset.fold min posInf f (Finset.univ : Finset (Fin 2048))) hf

/-- The reduction over X's points: for point m of Y, the least squared distance to X. -/
theorem colLeast_apply (x0 x1 : (⟨S16x2048x3, .f32⟩ : BufTy).Contents (Elt Ideal)) (b : Fin 16) (m : Fin 2048) :
    val_main_v19 (F := Ideal) x0 x1 (ix2 b m) = least posInf fun n => sqDist twoW (cloud x0 b n) (cloud x1 b m) := by
  have h : S16x2048x2048.Reduces [1] S16x2048 := by decide
  unfold val_main_v19
  rw [Host.reduce_eq_fold_single FloatOps.minimumf _ _ reducesTo_S16x2048x2048_S16x2048_d1 h h_S_]
  have hf : (val_main_v17 (F := Ideal) x0 x1 ∘ h.lift (ix2 b m))
      = fun n : Fin 2048 => sqDist twoW (cloud x0 b n) (cloud x1 b m) := funext fun (n : Fin 2048) => by
    have e : h.lift (ix2 b m) n = ix3 b n m := funext fun a => Fin.ext (by
      match a with | ⟨0, _⟩ => rfl | ⟨1, _⟩ => rfl | ⟨2, _⟩ => rfl)
    show val_main_v17 (F := Ideal) x0 x1 (h.lift (ix2 b m) n) = _
    rw [e, dist_apply]
  exact congrArg (fun f => Finset.fold min posInf f (Finset.univ : Finset (Fin 2048))) hf

/-- The reference's per-pair value at batch b is the pair's loss, each least value taken over all 2048 indices at once. -/
theorem pair_apply (x0 x1 : (⟨S16x2048x3, .f32⟩ : BufTy).Contents (Elt Ideal)) (b : Fin 16) :
    val_main_v26 (F := Ideal) x0 x1 (ix1 b) = pairLoss posInf twoW 0 countW (cloud x0 b) (cloud x1 b) := by
  have e20 : ∀ k : Fin 2048, idx_main_v20 (ix1 b) k = ix2 b k := fun k =>
    funext fun a => Fin.ext (by match a with | ⟨0, _⟩ => rfl | ⟨1, _⟩ => rfl)
  have e23 : ∀ k : Fin 2048, idx_main_v23 (ix1 b) k = ix2 b k := fun k =>
    funext fun a => Fin.ext (by match a with | ⟨0, _⟩ => rfl | ⟨1, _⟩ => rfl)
  rw [val_main_v26_apply, val_main_v22_apply, val_main_v25_apply, val_main_v20_apply, val_main_v23_apply,
    val_main_v21_apply, val_main_v24_apply]
  simp only [e20, e23, rowLeast_apply, colLeast_apply, val_main_cst_6_apply, val_main_cst_7_apply, val_main_cst_8_apply,
    val_main_cst_9_apply, Ideal.addf_def, Ideal.hostDivf_def, Ideal.ofBits_def, Ideal.ofBits_zero_f32]
  rfl

end Cert.ReferenceIdeal.RefSide

end
-- ==== Proof.Bridge.lean ====
/-
  The two programs' results are one function of the four arguments.

  The kernel program ends with its result at `total` of the gathered part's two arguments and the output array, which is
  the 16 pairs' losses computed half by half. The reference's result is the same negated mean of gathered
  log-probabilities plus the mean of the 16 pairs' losses, each least value taken over all 2048 indices at once. The two
  arrangements of a pair's loss agree on the extended reals (`Chamfer.pairLossTiled_eq`), entry by entry.
-/
import proofs.«131201_j79207786873276_2_alg».proof.Proof.KernelTail
import proofs.«131201_j79207786873276_2_alg».proof.Proof.RefSide

set_option maxRecDepth 16384

noncomputable section

namespace Cert.Bridge

open Idealize.ShloMosaic Idealize.ShloMosaic.TcCoe Idealize.SL.Sem Idealize.ShloMosaic.ValueIdx Cert.Chamfer

/-- A [16, 1, 1] array viewed as a vector of 16 reads, at b, entry (b, 0, 0). -/
theorem lossVec_apply (v : (⟨3, ![16, 1, 1]⟩ : Shape).Idx → EReal) (h : (⟨3, ![16, 1, 1]⟩ : Shape).ShapeCasts ⟨1, ![16]⟩)
    (b : Fin 16) : shapeCast ⟨1, ![16]⟩ v h (ix1 b) = v (ix3 b (0 : Fin 1) (0 : Fin 1)) :=
  shapeCast_apply v h (ix1 b) (ix3 b (0 : Fin 1) (0 : Fin 1)) (by
    rw [Shape.rowMajor_val_one, Shape.rowMajor_val_three]
    show (b.val * 1 + 0) * 1 + 0 = b.val
    omega)

/-- The kernel's 16 losses, as a vector, are the reference's 16 per-pair values. -/
theorem losses_eq (x0 x1 : (⟨Cert.ReferenceIdeal.S16x2048x3, .f32⟩ : BufTy).Contents (Elt Ideal)) :
    shapeCast Cert.KernelIdeal.S16 (Cert.KernelIdeal.Arr.G x0 x1) Cert.KernelIdeal.Facts₀.shapeCasts_S16x1x1_S16
      = Cert.ReferenceIdeal.Read.val_main_v26 (F := Ideal) x0 x1 := by
  funext i
  obtain ⟨b, rfl⟩ : ∃ b : Fin 16, i = ix1 b := ⟨i 0, eq_ix1 i⟩
  rw [lossVec_apply, Cert.ReferenceIdeal.RefSide.pair_apply, ← pairLossTiled_eq]
  rfl

/-- The kernel program's result and the reference's are one function of the arguments. -/
theorem result_eq (x0 x1 : (⟨Cert.ReferenceIdeal.S16x2048x3, .f32⟩ : BufTy).Contents (Elt Ideal))
    (x2 : (⟨Cert.ReferenceIdeal.S16x40, .f32⟩ : BufTy).Contents (Elt Ideal))
    (x3 : (⟨Cert.ReferenceIdeal.S16, .i32⟩ : BufTy).Contents (Elt Ideal)) :
    Cert.KernelIdeal.Tail.total x2 x3 (Cert.KernelIdeal.Arr.G x0 x1)
      = Cert.ReferenceIdeal.Read.val_main_v29 (F := Ideal) x0 x1 x2 x3 := by
  unfold Cert.KernelIdeal.Tail.total
  rw [losses_eq]
  rfl

section KernelRun

open Cert.KernelIdeal Cert.KernelIdeal.Gen

variable (m : (ℓ : Loc nD τ sig) → Buf (Elt Ideal) ℓ) (ρ : Dev nD → PrngReg)

set_option backward.isDefEq.respectTransparency.types false in
/-- The kernel program's run, read back: the result at `total` of the arguments, the arguments unchanged. -/
theorem kernel_run : θ_run defs (onTc (τ := τ) (main (F := Ideal))) ⟨m, fun _ => 0, ρ⟩ (fun r => ∀ c : Dev nD,
      r.2.mem ((c.tc : Thread nD τ).loc main_v9)
        = Tail.total (m ((c.tc : Thread nD τ).loc main_arg2)) (m ((c.tc : Thread nD τ).loc main_arg3))
            (Arr.G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans
        ((Tail.tail_value m c).trans (congrArg (Tail.total _ _) (Arr.final m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end KernelRun

end Cert.Bridge

end
-- ==== Proof.lean ====
/-
  The certificate of the tiled nearest-neighbour loss kernel against its reference.

  Both programs compute, for 16 pairs of clouds of 2048 points in three coordinates, the mean over the pairs of the
  symmetric mean least squared distance, plus the negated mean of 16 gathered log-probabilities. The kernel visits each
  pair twice, once per half of the second cloud, carrying a running least value per point of the first cloud and a
  running sum; the reference takes every least value over the whole second cloud at once. On the extended reals a least
  value and a sum may be taken in halves, so the two results are equal, whatever the inputs.

  The three frames are the generated ones (the reference's is its generated run with the result dropped); the ideal pass
  rewrote nothing, so the kernel's idealization is its own text; the value claim joins the kernel program's run read
  back (`Bridge.kernel_run`) to the reference's generated run through `Bridge.result_eq`.
-/
import proofs.«131201_j79207786873276_2_alg».proof.Defs
import proofs.«131201_j79207786873276_2_alg».proof.Proof.Gen.Kernel
import proofs.«131201_j79207786873276_2_alg».proof.Proof.Gen.Kernel.Skeleton
import proofs.«131201_j79207786873276_2_alg».proof.Proof.Gen.Kernel.Launch
import proofs.«131201_j79207786873276_2_alg».proof.Proof.Gen.Kernel.Points
import proofs.«131201_j79207786873276_2_alg».proof.Proof.Gen.Kernel.Frame
import proofs.«131201_j79207786873276_2_alg».proof.Proof.Gen.KernelIdeal
import proofs.«131201_j79207786873276_2_alg».proof.Proof.Gen.KernelIdeal.Skeleton
import proofs.«131201_j79207786873276_2_alg».proof.Proof.Gen.KernelIdeal.Launch
import proofs.«131201_j79207786873276_2_alg».proof.Proof.Gen.KernelIdeal.Points
import proofs.«131201_j79207786873276_2_alg».proof.Proof.Gen.KernelIdeal.Frame
import proofs.«131201_j79207786873276_2_alg».proof.Proof.Gen.ReferenceIdeal
import proofs.«131201_j79207786873276_2_alg».proof.Proof.Gen.ReferenceIdeal.Run
import proofs.«131201_j79207786873276_2_alg».proof.Proof.Gen.ReferenceIdeal.Read
import proofs.«131201_j79207786873276_2_alg».proof.Proof.Gen.Pre_finite_inputs
import proofs.«131201_j79207786873276_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result: the kernel program's run read back
    and the reference's generated run, joined by the equality of the two results as functions of the arguments. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, (hagree c).1, (hagree c).2.1, (hagree c).2.2.1, (hagree c).2.2.2]
  exact (Cert.Bridge.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
